-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2 : Shape := ⟨2, ![131072, 2]⟩
abbrev S2x1024 : Shape := ⟨2, ![2, 1024]⟩
abbrev S1024x2 : Shape := ⟨2, ![1024, 2]⟩
abbrev S131072x1024 : Shape := ⟨2, ![131072, 1024]⟩
abbrev S_ : Shape := ⟨0, ![]⟩

class Facts : Prop where
  bcast_S_S131072x2 : S_.BroadcastsInDim S131072x2 (![] : Fin 0 → Fin S131072x2.rank)
  reducesTo_S131072x2_S_d0_1 : S131072x2.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1024x2 : S_.BroadcastsInDim S1024x2 (![] : Fin 0 → Fin S1024x2.rank)
  reducesTo_S1024x2_S_d0_1 : S1024x2.ReducesTo [0, 1] S_
  bcast_S_S131072x1024 : S_.BroadcastsInDim S131072x1024 (![] : Fin 0 → Fin S131072x1024.rank)
  reducesTo_S131072x1024_S_d0_1 : S131072x1024.ReducesTo [0, 1] S_

variable [Facts]

def fn_part2 {F : FTy → Type} [FloatOps F] (main_arg7 : FVec F S131072x2 .f32) (main_arg8 : FVec F S131072x2 .f32) (main_v33 : IVec S_ 1) : IVec S_ 1 :=
  let main_v34 : FVec F S131072x2 .f32 := Host.absf main_arg7
  let main_cst_12 : FVec F S_ .f32 := constant S_ .f32 0x7F800000#32
  let main_v35 : FVec F S131072x2 .f32 := broadcastInDim S131072x2 ![] bcast_S_S131072x2 main_cst_12
  let main_v36 : IVec S131072x2 1 := cmpf .olt main_v34 main_v35
  let main_c_13 : IVec S_ 1 := constantI S_ 1 1#1
  let main_v37 : IVec S_ 1 := (fun x v => Host.reduce IntOp.andi x v reducesTo_S131072x2_S_d0_1 h_S_) main_v36 main_c_13
  let main_v38 : IVec S_ 1 := andi main_v33 main_v37
  let main_v39 : FVec F S131072x2 .f32 := Host.absf main_arg8
  let main_cst_14 : FVec F S_ .f32 := constant S_ .f32 0x7F800000#32
  let main_v40 : FVec F S131072x2 .f32 := broadcastInDim S131072x2 ![] bcast_S_S131072x2 main_cst_14
  let main_v41 : IVec S131072x2 1 := cmpf .olt main_v39 main_v40
  let main_c_15 : IVec S_ 1 := constantI S_ 1 1#1
  let main_v42 : IVec S_ 1 := (fun x v => Host.reduce IntOp.andi x v reducesTo_S131072x2_S_d0_1 h_S_) main_v41 main_c_15
  let main_v43 : IVec S_ 1 := andi main_v38 main_v42
  main_v43

def fn_part1 {F : FTy → Type} [FloatOps F] (main_arg4 : FVec F S131072x2 .f32) (main_arg5 : FVec F S131072x1024 .f32) (main_arg6 : FVec F S131072x1024 .f32) (main_arg7 : FVec F S131072x2 .f32) (main_arg8 : FVec F S131072x2 .f32) (main_v13 : IVec S_ 1) (main_v16 : IVec S131072x2 1) : IVec S_ 1 :=
  let main_c_5 : IVec S_ 1 := constantI S_ 1 1#1
  let main_v17 : IVec S_ 1 := (fun x v => Host.reduce IntOp.andi x v reducesTo_S131072x2_S_d0_1 h_S_) main_v16 main_c_5
  let main_v18 : IVec S_ 1 := andi main_v13 main_v17
  let main_v19 : FVec F S131072x2 .f32 := Host.absf main_arg4
  let main_cst_6 : FVec F S_ .f32 := constant S_ .f32 0x7F800000#32
  let main_v20 : FVec F S131072x2 .f32 := broadcastInDim S131072x2 ![] bcast_S_S131072x2 main_cst_6
  let main_v21 : IVec S131072x2 1 := cmpf .olt main_v19 main_v20
  let main_c_7 : IVec S_ 1 := constantI S_ 1 1#1
  let main_v22 : IVec S_ 1 := (fun x v => Host.reduce IntOp.andi x v reducesTo_S131072x2_S_d0_1 h_S_) main_v21 main_c_7
  let main_v23 : IVec S_ 1 := andi main_v18 main_v22
  let main_v24 : FVec F S131072x1024 .f32 := Host.absf main_arg5
  let main_cst_8 : FVec F S_ .f32 := constant S_ .f32 0x7F800000#32
  let main_v25 : FVec F S131072x1024 .f32 := broadcastInDim S131072x1024 ![] bcast_S_S131072x1024 main_cst_8
  let main_v26 : IVec S131072x1024 1 := cmpf .olt main_v24 main_v25
  let main_c_9 : IVec S_ 1 := constantI S_ 1 1#1
  let main_v27 : IVec S_ 1 := (fun x v => Host.reduce IntOp.andi x v reducesTo_S131072x1024_S_d0_1 h_S_) main_v26 main_c_9
  let main_v28 : IVec S_ 1 := andi main_v23 main_v27
  let main_v29 : FVec F S131072x1024 .f32 := Host.absf main_arg6
  let main_cst_10 : FVec F S_ .f32 := constant S_ .f32 0x7F800000#32
  let main_v30 : FVec F S131072x1024 .f32 := broadcastInDim S131072x1024 ![] bcast_S_S131072x1024 main_cst_10
  let main_v31 : IVec S131072x1024 1 := cmpf .olt main_v29 main_v30
  let main_c_11 : IVec S_ 1 := constantI S_ 1 1#1
  let main_v32 : IVec S_ 1 := (fun x v => Host.reduce IntOp.andi x v reducesTo_S131072x1024_S_d0_1 h_S_) main_v31 main_c_11
  let main_v33 : IVec S_ 1 := andi main_v28 main_v32
  fn_part2 (F := F) main_arg7 main_arg8 main_v33

def fn {F : FTy → Type} [FloatOps F] (main_arg0 : FVec F S131072x2 .f32) (main_arg1 : FVec F S2x1024 .f32) (main_arg2 : FVec F S1024x2 .f32) (main_arg3 : FVec F S131072x2 .f32) (main_arg4 : FVec F S131072x2 .f32) (main_arg5 : FVec F S131072x1024 .f32) (main_arg6 : FVec F S131072x1024 .f32) (main_arg7 : FVec F S131072x2 .f32) (main_arg8 : FVec F S131072x2 .f32) : IVec S_ 1 :=
  let main_v0 : FVec F S131072x2 .f32 := Host.absf main_arg0
  let main_cst : FVec F S_ .f32 := constant S_ .f32 0x7F800000#32
  let main_v1 : FVec F S131072x2 .f32 := broadcastInDim S131072x2 ![] bcast_S_S131072x2 main_cst
  let main_v2 : IVec S131072x2 1 := cmpf .olt main_v0 main_v1
  let main_c : IVec S_ 1 := constantI S_ 1 1#1
  let main_v3 : IVec S_ 1 := (fun x v => Host.reduce IntOp.andi x v reducesTo_S131072x2_S_d0_1 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S1024x2 .f32 := Host.absf main_arg2
  let main_cst_2 : FVec F S_ .f32 := constant S_ .f32 0x7F800000#32
  let main_v10 : FVec F S1024x2 .f32 := broadcastInDim S1024x2 ![] bcast_S_S1024x2 main_cst_2
  let main_v11 : IVec S1024x2 1 := cmpf .olt main_v9 main_v10
  let main_c_3 : IVec S_ 1 := constantI S_ 1 1#1
  let main_v12 : IVec S_ 1 := (fun x v => Host.reduce IntOp.andi x v reducesTo_S1024x2_S_d0_1 h_S_) main_v11 main_c_3
  let main_v13 : IVec S_ 1 := andi main_v8 main_v12
  let main_v14 : FVec F S131072x2 .f32 := Host.absf main_arg3
  let main_cst_4 : FVec F S_ .f32 := constant S_ .f32 0x7F800000#32
  let main_v15 : FVec F S131072x2 .f32 := broadcastInDim S131072x2 ![] bcast_S_S131072x2 main_cst_4
  let main_v16 : IVec S131072x2 1 := cmpf .olt main_v14 main_v15
  fn_part1 (F := F) main_arg4 main_arg5 main_arg6 main_arg7 main_arg8 main_v13 main_v16
-- ==== Kernel.lean ====
abbrev S131072x2 : Shape := ⟨2, ![131072, 2]⟩
abbrev S2x1024 : Shape := ⟨2, ![2, 1024]⟩
abbrev S1024x2 : Shape := ⟨2, ![1024, 2]⟩
abbrev S131072x1024 : Shape := ⟨2, ![131072, 1024]⟩
abbrev S2048x128 : Shape := ⟨2, ![2048, 128]⟩
abbrev S1024x128 : Shape := ⟨2, ![1024, 128]⟩

abbrev nBuf : Space → Nat
  | .hbm => 15
  | .vmem => 8
  | .smem => 0
  | _ => 0

abbrev bufTy : (tb : Table) → Fin (tcTables nBuf tb) → BufTy
  | .hbm, ⟨0, _⟩ => ⟨S131072x2, .f32⟩
  | .hbm, ⟨1, _⟩ => ⟨S2x1024, .f32⟩
  | .hbm, ⟨2, _⟩ => ⟨S1024x2, .f32⟩
  | .hbm, ⟨3, _⟩ => ⟨S131072x2, .f32⟩
  | .hbm, ⟨4, _⟩ => ⟨S131072x2, .f32⟩
  | .hbm, ⟨5, _⟩ => ⟨S131072x1024, .f32⟩
  | .hbm, ⟨6, _⟩ => ⟨S131072x1024, .f32⟩
  | .hbm, ⟨7, _⟩ => ⟨S131072x2, .f32⟩
  | .hbm, ⟨8, _⟩ => ⟨S131072x2, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S131072x2, .f32⟩
  | .hbm, ⟨14, _⟩ => ⟨S131072x2, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S131072x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S131072x2_S2048x128 : S131072x2.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  natLt_1_32 : 1 < 32
  shapeCasts_S2048x128_S131072x2 : S2048x128.ShapeCasts S131072x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S2048x128.size a
  hwx0_0 : ∀ i : grid0.Coords, EltTy.bits .f32 = 32 ∨ (Rect.block (s := S2048x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S2048x128.size a
  hwx0_1 : ∀ i : grid0.Coords, EltTy.bits .f32 = 32 ∨ (Rect.block (s := S2048x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S2048x128.size a
  hwx0_2 : ∀ i : grid0.Coords, EltTy.bits .f32 = 32 ∨ (Rect.block (s := S2048x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S2048x128.size a
  hwx0_3 : ∀ i : grid0.Coords, EltTy.bits .f32 = 32 ∨ (Rect.block (s := S2048x128) S1024x128.size (cc0_transform_3 i) (hinb0_3 i)).WholeWords (EltTy.packing .f32)

variable [Facts₀]

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x2 : Shape := ⟨2, ![131072, 2]⟩
abbrev S2x1024 : Shape := ⟨2, ![2, 1024]⟩
abbrev S1024x2 : Shape := ⟨2, ![1024, 2]⟩
abbrev S131072x1024 : Shape := ⟨2, ![131072, 1024]⟩
abbrev S_ : Shape := ⟨0, ![]⟩

abbrev nBuf : Space → Nat
  | .hbm => 98
  | .vmem => 0
  | .smem => 0
  | _ => 0

abbrev bufTy : (tb : Table) → Fin (tcTables nBuf tb) → BufTy
  | .hbm, ⟨0, _⟩ => ⟨S131072x2, .f32⟩
  | .hbm, ⟨1, _⟩ => ⟨S2x1024, .f32⟩
  | .hbm, ⟨2, _⟩ => ⟨S1024x2, .f32⟩
  | .hbm, ⟨3, _⟩ => ⟨S131072x2, .f32⟩
  | .hbm, ⟨4, _⟩ => ⟨S131072x2, .f32⟩
  | .hbm, ⟨5, _⟩ => ⟨S131072x1024, .f32⟩
  | .hbm, ⟨6, _⟩ => ⟨S131072x1024, .f32⟩
  | .hbm, ⟨7, _⟩ => ⟨S131072x2, .f32⟩
  | .hbm, ⟨8, _⟩ => ⟨S131072x2, .f32⟩
  | .hbm, ⟨9, _⟩ => ⟨S_, .f32⟩
  | .hbm, ⟨10, _⟩ => ⟨S131072x2, .f32⟩
  | .hbm, ⟨11, _⟩ => ⟨S131072x2, .f32⟩
  | .hbm, ⟨12, _⟩ => ⟨S_, .f32⟩
  | .hbm, ⟨13, _⟩ => ⟨S131072x2, .f32⟩
  | .hbm, ⟨14, _⟩ => ⟨S131072x2, .f32⟩
  | .hbm, ⟨15, _⟩ => ⟨S131072x2, .f32⟩
  | .hbm, ⟨16, _⟩ => ⟨S_, .f32⟩
  | .hbm, ⟨17, _⟩ => ⟨S131072x2, .f32⟩
  | .hbm, ⟨18, _⟩ => ⟨S131072x2, .f32⟩
  | .hbm, ⟨19, _⟩ => ⟨S131072x2, .f32⟩
  | .hbm, ⟨20, _⟩ => ⟨S_, .f32⟩
  | .hbm, ⟨21, _⟩ => ⟨S131072x2, .f32⟩
  | .hbm, ⟨22, _⟩ => ⟨S131072x2, .f32⟩
  | .hbm, ⟨23, _⟩ => ⟨S131072x2, .f32⟩
  | .hbm, ⟨24, _⟩ => ⟨S_, .f32⟩
  | .hbm, ⟨25, _⟩ => ⟨S131072x2, .f32⟩
  | .hbm, ⟨26, _⟩ => ⟨S131072x2, .f32⟩
  | .hbm, ⟨27, _⟩ => ⟨S_, .f32⟩
  | .hbm, ⟨28, _⟩ => ⟨S131072x2, .f32⟩
  | .hbm, ⟨29, _⟩ => ⟨S131072x2, .i1⟩
  | .hbm, ⟨30, _⟩ => ⟨S131072x2, .f32⟩
  | .hbm, ⟨31, _⟩ => ⟨S_, .f32⟩
  | .hbm, ⟨32, _⟩ => ⟨S131072x2, .f32⟩
  | .hbm, ⟨33, _⟩ => ⟨S131072x2, .f32⟩
  | .hbm, ⟨34, _⟩ => ⟨S131072x2, .f32⟩
  | .hbm, ⟨35, _⟩ => ⟨S_, .f32⟩
  | .hbm, ⟨36, _⟩ => ⟨S131072x2, .f32⟩
  | .hbm, ⟨37, _⟩ => ⟨S131072x2, .f32⟩
  | .hbm, ⟨38, _⟩ => ⟨S131072x2, .f32⟩
  | .hbm, ⟨39, _⟩ => ⟨S131072x2, .f32⟩
  | .hbm, ⟨40, _⟩ => ⟨S131072x1024, .f32⟩
  | .hbm, ⟨41, _⟩ => ⟨S_, .f32⟩
  | .hbm, ⟨42, _⟩ => ⟨S131072x1024, .f32⟩
  | .hbm, ⟨43, _⟩ => ⟨S131072x1024, .f32⟩
  | .hbm, ⟨44, _⟩ => ⟨S131072x1024, .f32⟩
  | .hbm, ⟨45, _⟩ => ⟨S_, .f32⟩
  | .hbm, ⟨46, _⟩ => ⟨S131072x1024, .f32⟩
  | .hbm, ⟨47, _⟩ => ⟨S131072x1024, .f32⟩
  | .hbm, ⟨48, _⟩ => ⟨S131072x1024, .f32⟩
  | .hbm, ⟨49, _⟩ => ⟨S_, .f32⟩
  | .hbm, ⟨50, _⟩ => ⟨S131072x1024, .f32⟩
  | .hbm, ⟨51, _⟩ => ⟨S131072x1024, .f32⟩
  | .hbm, ⟨52, _⟩ => ⟨S131072x1024, .f32⟩
  | .hbm, ⟨53, _⟩ => ⟨S_, .f32⟩
  | .hbm, ⟨54, _⟩ => ⟨S131072x1024, .f32⟩
  | .hbm, ⟨55, _⟩ => ⟨S131072x1024, .f32⟩
  | .hbm, ⟨56, _⟩ => ⟨S_, .f32⟩
  | .hbm, ⟨57, _⟩ => ⟨S131072x1024, .f32⟩
  | .hbm, ⟨58, _⟩ => ⟨S131072x1024, .i1⟩
  | .hbm, ⟨59, _⟩ => ⟨S131072x1024, .f32⟩
  | .hbm, ⟨60, _⟩ => ⟨S_, .f32⟩
  | .hbm, ⟨61, _⟩ => ⟨S131072x1024, .f32⟩
  | .hbm, ⟨62, _⟩ => ⟨S131072x1024, .f32⟩
  | .hbm, ⟨63, _⟩ => ⟨S131072x1024, .f32⟩
  | .hbm, ⟨64, _⟩ => ⟨S_, .f32⟩
  | .hbm, ⟨65, _⟩ => ⟨S131072x1024, .f32⟩
  | .hbm, ⟨66, _⟩ => ⟨S131072x1024, .f32⟩
  | .hbm, ⟨67, _⟩ => ⟨S131072x1024, .f32⟩
  | .hbm, ⟨68, _⟩ => ⟨S131072x1024, .f32⟩
  | .hbm, ⟨69, _⟩ => ⟨S131072x2, .f32⟩
  | .hbm, ⟨70, _⟩ => ⟨S_, .f32⟩
  | .hbm, ⟨71, _⟩ => ⟨S131072x2, .f32⟩
  | .hbm, ⟨72, _⟩ => ⟨S131072x2, .f32⟩
  | .hbm, ⟨73, _⟩ => ⟨S131072x2, .f32⟩
  | .hbm, ⟨74, _⟩ => ⟨S_, .f32⟩
  | .hbm, ⟨75, _⟩ => ⟨S131072x2, .f32⟩
  | .hbm, ⟨76, _⟩ => ⟨S131072x2, .f32⟩
  | .hbm, ⟨77, _⟩ => ⟨S131072x2, .f32⟩
  | .hbm, ⟨78, _⟩ => ⟨S_, .f32⟩
  | .hbm, ⟨79, _⟩ => ⟨S131072x2, .f32⟩
  | .hbm, ⟨80, _⟩ => ⟨S131072x2, .f32⟩
  | .hbm, ⟨81, _⟩ => ⟨S131072x2, .f32⟩
  | .hbm, ⟨82, _⟩ => ⟨S_, .f32⟩
  | .hbm, ⟨83, _⟩ => ⟨S131072x2, .f32⟩
  | .hbm, ⟨84, _⟩ => ⟨S131072x2, .f32⟩
  | .hbm, ⟨85, _⟩ => ⟨S_, .f32⟩
  | .hbm, ⟨86, _⟩ => ⟨S131072x2, .f32⟩
  | .hbm, ⟨87, _⟩ => ⟨S131072x2, .i1⟩
  | .hbm, ⟨88, _⟩ => ⟨S131072x2, .f32⟩
  | .hbm, ⟨89, _⟩ => ⟨S_, .f32⟩
  | .hbm, ⟨90, _⟩ => ⟨S131072x2, .f32⟩
  | .hbm, ⟨91, _⟩ => ⟨S131072x2, .f32⟩
  | .hbm, ⟨92, _⟩ => ⟨S131072x2, .f32⟩
  | .hbm, ⟨93, _⟩ => ⟨S_, .f32⟩
  | .hbm, ⟨94, _⟩ => ⟨S131072x2, .f32⟩
  | .hbm, ⟨95, _⟩ => ⟨S131072x2, .f32⟩
  | .hbm, ⟨96, _⟩ => ⟨S131072x2, .f32⟩
  | .hbm, ⟨97, _⟩ => ⟨S131072x2, .f32⟩
  | _, _ => ⟨S131072x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_14 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_15 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_16 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_17 : Ref sig .tc := ⟨.hbm, 82, rfl⟩
abbrev main_v55 : Ref sig .tc := ⟨.hbm, 83, rfl⟩
abbrev main_v56 : Ref sig .tc := ⟨.hbm, 84, rfl⟩
abbrev main_cst_18 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_19 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_20 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]

class Facts₀ : Prop where
  bcast_S_S131072x2 : S_.BroadcastsInDim S131072x2 (![] : Fin 0 → Fin S131072x2.rank)
  bcast_S_S131072x1024 : S_.BroadcastsInDim S131072x1024 (![] : Fin 0 → Fin S131072x1024.rank)
  dot_S131072x2_S2x1024_S131072x1024_1_0_0_1_n_n_wf : DotDims.WF S131072x2 S2x1024 S131072x1024 [1] [0] [0] [1] [] []
  dot_S131072x1024_S1024x2_S131072x2_1_0_0_1_n_n_wf : DotDims.WF S131072x1024 S1024x2 S131072x2 [1] [0] [0] [1] [] []

variable [Facts₀]

def dot_S131072x2_S2x1024_S131072x1024_1_0_0_1_n_n : DotDims S131072x2 S2x1024 S131072x1024 where
  lhsContracting := [1]
  rhsContracting := [0]
  lhsNonContracting := [0]
  rhsNonContracting := [1]
  lhsBatch := []
  rhsBatch := []
  wf := dot_S131072x2_S2x1024_S131072x1024_1_0_0_1_n_n_wf
def dot_S131072x1024_S1024x2_S131072x2_1_0_0_1_n_n : DotDims S131072x1024 S1024x2 S131072x2 where
  lhsContracting := [1]
  rhsContracting := [0]
  lhsNonContracting := [0]
  rhsNonContracting := [1]
  lhsBatch := []
  rhsBatch := []
  wf := dot_S131072x1024_S1024x2_S131072x2_1_0_0_1_n_n_wf

class Facts : Prop extends Facts₀ where

variable [Facts]
-- ==== Proof.LifStep.lean ====
/-
  One leaky-integrate-and-fire step of the output layer, element by element, at the ideal values (floats read as
  extended reals, every operation exact).

  With `c` the f32 word 0x39AEC33E (the time step over the membrane time constant), `θ` the word 0x3DCCCCCD (the
  firing threshold) and `0`, `1` the words of zero and one, a neuron with potential `v` and input current `i`
    * decays to            d = v + c · ((0 − v) + i),
    * fires                z = 1 if d − θ > 0, else 0,
    * and is reset to      (1 − z) · d.
  Both outputs depend on the neuron's own `v` and `i` only, so a whole array of neurons is the step applied at each
  index, whatever the array's shape; regrouping the array's elements under another shape commutes with it.

  Two facts about how the step may be spelt are proved here. The firing bit may be turned into a float by reading it
  unsigned, or by first widening it to 32 bits and reading that signed: a single bit widened with zeros is 0 or 1
  either way. And the reset may carry an extra summand `z · 0` (a reset potential of zero): on the extended reals a
  product with zero is zero whatever `z` is, and adding zero changes nothing, so no finiteness is needed.
-/
import Idealize.ShloMosaic.PureOps.Ideal
import Idealize.ShloMosaic.PureOps.Ideal.Laws
import Idealize.ShloMosaic.PureOps.Vector
import Idealize.ShloMosaic.Lib.Pipeline.Value

noncomputable section

namespace Cert.LifStep

open Idealize.ShloMosaic

/-- The potential after the leak and the input: `v + c · ((0 − v) + i)`. The words are kept as words: both programs
    spell the same ones, so their values are never needed. -/
def decayed (v i : Ideal .f32) : Ideal .f32 :=
  FloatOps.addf (F := Ideal) v (FloatOps.mulf (F := Ideal) (FloatOps.ofBits (F := Ideal) .f32 0x39AEC33E#32)
    (FloatOps.addf (F := Ideal) (FloatOps.subf (F := Ideal) (FloatOps.ofBits (F := Ideal) .f32 0x00000000#32) v) i))

/-- The firing bit: the decayed potential less the threshold is above zero. -/
def fires (v i : Ideal .f32) : BitVec 1 :=
  FloatOps.cmpf (F := Ideal) .ogt (FloatOps.subf (F := Ideal) (decayed v i) (FloatOps.ofBits (F := Ideal) .f32 0x3DCCCCCD#32))
    (FloatOps.ofBits (F := Ideal) .f32 0x00000000#32)

/-- The spike as a float: the firing bit read unsigned, 0 or 1. -/
def spike (v i : Ideal .f32) : Ideal .f32 := FloatOps.uitofp (F := Ideal) .f32 (fires v i)

/-- The potential after the reset to zero of a neuron that fired: `(1 − z) · d`. -/
def membrane (v i : Ideal .f32) : Ideal .f32 :=
  FloatOps.mulf (F := Ideal) (FloatOps.subf (F := Ideal) (FloatOps.ofBits (F := Ideal) .f32 0x3F800000#32) (spike v i)) (decayed v i)

/-- The spikes of an array of neurons, of any shape: the step at each index. -/
def spikes {S : Shape} (v i : S.Idx → Ideal .f32) : S.Idx → Ideal .f32 := fun j => spike (v j) (i j)

/-- Their potentials after the reset. -/
def membranes {S : Shape} (v i : S.Idx → Ideal .f32) : S.Idx → Ideal .f32 := fun j => membrane (v j) (i j)

/-- A single bit widened to 32 bits with zeros and read as a signed integer is the bit read unsigned: both are 0 or 1. -/
theorem toInt_widened (b : BitVec 1) : (b.setWidth 32).toInt = (b.toNat : Int) := by
  revert b; decide

/-- So the float of the widened bit read signed is the float of the bit read unsigned. -/
theorem signed_widened_eq_unsigned (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_widened]
  simp only [Int.cast_natCast]

/-- A reset potential of zero adds nothing: `p + z · 0 = p` on the extended reals, for every `z`. -/
theorem add_mul_zero_word (p z : Ideal .f32) :
    FloatOps.addf (F := Ideal) p (FloatOps.mulf (F := Ideal) z (FloatOps.ofBits (F := Ideal) .f32 0x00000000#32)) = p := by
  simp only [Ideal.addf_def, Ideal.mulf_def, Ideal.ofBits_def, Ideal.ofBits_zero_f32, mul_zero, add_zero]

/-- The step commutes with regrouping the neurons under another shape: the spikes of the regrouped arrays are the
    spikes regrouped. -/
theorem spikes_shapeCast {s t : Shape} (h : s.ShapeCasts t) (v i : s.Idx → Ideal .f32) :
    spikes (shapeCast t v h) (shapeCast t i h) = shapeCast t (spikes v i) h := rfl

/-- And so do the potentials after the reset. -/
theorem membranes_shapeCast {s t : Shape} (h : s.ShapeCasts t) (v i : s.Idx → Ideal .f32) :
    membranes (shapeCast t v h) (shapeCast t i h) = shapeCast t (membranes v i) h := rfl

end Cert.LifStep

end
-- ==== Proof.KernelStep.lean ====
/-
  What the kernel's body computes from its two loaded blocks is the step of LifStep.lean applied to the blocks.

  The body loads a block of potentials and a block of currents of one shape, and stores two blocks: the spikes, where
  the firing bit is widened to 32 bits and read as a signed integer, and `(1 − z) · d`. Every operation of the body
  acts index by index, so each stored block at an index is the step at the two loaded values there; the widened bit
  read signed is the bit read unsigned.
-/
import proofs.«172751_j49168785605378_2_alg».proof.Proof.Gen.KernelIdeal.Skeleton
import proofs.«172751_j49168785605378_2_alg».proof.Proof.LifStep
import Idealize.ShloMosaic.Lib.Pipeline.Value

noncomputable section

namespace Cert.KernelIdeal.Step

open Idealize.ShloMosaic Cert.KernelIdeal Cert.KernelIdeal.Gen Cert.LifStep

/-- The body's decayed potential at an index is the step's, at the two loaded values there (the body's changes of
    shape keep the shape). -/
theorem decayed_block (v i : Vec Ideal S1024x128 .f32) (j : S1024x128.Idx) :
    k0_pay1 (F := Ideal) v i j = decayed (v j) (i j) := by
  unfold k0_pay1
  simp only [shapeCast_self]
  rfl

/-- The first stored block is the spikes of the loaded blocks. -/
theorem spikes_block (v i : Vec Ideal S1024x128 .f32) : k0_pay2 (F := Ideal) v i = spikes v i := by
  funext j
  show FloatOps.sitofp (F := Ideal) .f32
      ((FloatOps.cmpf (F := Ideal) .ogt (FloatOps.subf (F := Ideal) (k0_pay1 (F := Ideal) v i j)
        (FloatOps.ofBits (F := Ideal) .f32 0x3DCCCCCD#32)) (FloatOps.ofBits (F := Ideal) .f32 0x00000000#32)).setWidth 32) = _
  rw [decayed_block, signed_widened_eq_unsigned]
  rfl

/-- The second stored block is their potentials after the reset. -/
theorem membranes_block (v i : Vec Ideal S1024x128 .f32) : k0_pay3 (F := Ideal) v i = membranes v i := by
  funext j
  show FloatOps.mulf (F := Ideal) (FloatOps.subf (F := Ideal) (FloatOps.ofBits (F := Ideal) .f32 0x3F800000#32)
      (k0_pay2 (F := Ideal) v i j)) (k0_pay1 (F := Ideal) v i j) = _
  rw [spikes_block, decayed_block]
  rfl

end Cert.KernelIdeal.Step

end
-- ==== Proof.KernelArrays.lean ====
/-
  The kernel's two result arrays after its run, as the step of LifStep.lean of the two output-layer arguments.

  The program regroups each of the two [131072, 2] arguments, in row-major order, as a [2048, 128] array; runs the body
  at two grid points, point `t` on rows `1024 t … 1024 t + 1023` of both regrouped arrays, writing the same rows of two
  [2048, 128] result arrays; and regroups each result array back to [131072, 2].
    * Point `t` writes block `t` of the spikes (and of the reset potentials) of the regrouped arrays: every window's
      block index at `t` is `(t, 0)`, so the input blocks and the output block are the same rows, and the body is the
      step at each index of its blocks.
    * The two blocks tile the 2048 rows, so each result array ends holding the step of the regrouped arrays, whole.
    * The step acts index by index, so it commutes with the regrouping; regrouping there and back is the identity.
      Hence each final result is the step of the arguments themselves.
-/
import proofs.«172751_j49168785605378_2_alg».proof.Proof.Gen.KernelIdeal.Frame
import proofs.«172751_j49168785605378_2_alg».proof.Proof.KernelStep
import Idealize.ShloMosaic.Lib.Pipeline.Value
import Idealize.ShloMosaic.Lib.StableHlo.Run
import Idealize.ShloMosaic.Lib.Tactic

noncomputable section

namespace Cert.KernelIdeal.Arrays

open Idealize.ShloMosaic Idealize.ShloMosaic.TcCoe Idealize.SL.Sem Idealize.ShloMosaic.StableHlo
open Idealize.ShloMosaic.Pipeline (Dat)
open Cert.KernelIdeal Cert.KernelIdeal.Gen Cert.LifStep Cert.KernelIdeal.Step

variable (m : (ℓ : Loc nD τ sig) → Buf (Elt Ideal) ℓ) (ρ : Dev nD → PrngReg)

theorem zero_offsets : (![0, 0] : Fin 2 → Nat) = fun _ => 0 := funext fun a => by fin_cases a <;> rfl

/-- At point `t` every window's block is block `(t, 0)` of its array. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The two arrays the region reads: the arguments regrouped -/

/-- The region finds the potentials regrouped as [2048, 128]. -/
theorem entry_potentials (c : Dev nD) : (V m c main_v0 : S2048x128.Idx → Ideal .f32)
    = shapeCast S2048x128 (m ((c : Thread nD τ).loc main_arg7) : S131072x2.Idx → Ideal .f32) shapeCasts_S131072x2_S2048x128 := by
  show StableHlo.after hostOps0 (fun b => m (c, b)) (Proc.devRef .tc main_v0) = _
  after_results
  rfl

/-- And the currents. -/
theorem entry_currents (c : Dev nD) : (V m c main_v1 : S2048x128.Idx → Ideal .f32)
    = shapeCast S2048x128 (m ((c : Thread nD τ).loc main_arg8) : S131072x2.Idx → Ideal .f32) shapeCasts_S131072x2_S2048x128 := by
  show StableHlo.after hostOps0 (fun b => m (c, b)) (Proc.devRef .tc main_v1) = _
  after_results
  rfl

/-! ## The spikes' array -/

/-- What point `t` writes back to the spikes array is block `t` of the spikes of the two regrouped argument arrays: the
    body's stored block is the spikes of its two loaded blocks (KernelStep.lean), and the two input blocks at `t` sit in
    their arrays exactly where the output block at `t` sits in its array. -/
theorem flushed2_eq (c : Dev nD) (t : Fin cfg0.N) :
    (dats m 0 c).flushed 2 t = ((cfg0.win 2).blk t).view.read (Elt Ideal)
      (spikes (S := S2048x128) (V m c main_v0) (V m c main_v1)) := by
  show (cfg0.win 2).cut (grid0.coords t) ((dats m 0 c).after 2 t) = _
  rw [after0_2]
  unfold out0_2
  rw [View.canon_unit_zero zero_offsets]
  simp only [View.ld_unit_zero (S := S1024x128) zero_offsets]
  rw [spikes_block]
  obtain ⟨e0, e1, e2, e3, e4, e5, e6, e7⟩ := block_indices t
  funext j
  show spike (V m c main_v0 (((cfg0.win 0).blk t).view.emb j)) (V m c main_v1 (((cfg0.win 1).blk t).view.emb j))
    = spike (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 1024 + 1 * (j 0).val = win0_2.index t (0 : Fin 2) * 1024 + 1 * (j 0).val; omega
    | ⟨1, _⟩ => show win0_1.index t (1 : Fin 2) * 128 + 1 * (j 1).val = win0_2.index t (1 : Fin 2) * 128 + 1 * (j 1).val; omega
  rw [h0, h1]

/-- An index of the spikes array is in point `t`'s block iff each coordinate is in the block's range on its axis. -/
theorem mem_block2 (t : Fin cfg0.N) (i : S2048x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v2_0).slice (win0_2.rect t)).set ↔ _
  rw [View.set_slice_whole, Rect.mem_set_unit]
  exact Iff.rfl

/-- The two blocks tile the spikes array: row `r` is in the block of point `r / 1024`. -/
theorem cover2 (i : S2048x128.Idx) :
    ∃ t : Fin cfg0.N, (cfg0.win 2).flush t = true ∧ i ∈ ((cfg0.win 2).blk t).view.set := by
  have hi0 : (i 0).val < 2048 := (i 0).isLt
  have hi1 : (i 1).val < 128 := (i 1).isLt
  obtain ⟨t, ht⟩ : ∃ t : Fin cfg0.N, t.val = (i 0).val / 1024 :=
    ⟨⟨(i 0).val / 1024, by rw [show cfg0.N = 2 from N_0]; omega⟩, rfl⟩
  obtain ⟨e0, e1, e2, e3, e4, e5, e6, e7⟩ := block_indices t
  refine ⟨t, flush0_2 t, ?_⟩
  rw [mem_block2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- So after the last point the spikes array holds the spikes of the two regrouped argument arrays, whole. -/
theorem final2 (c : Dev nD) :
    (dats m 0 c).arrAt 2 cfg0.N = spikes (S := S2048x128) (V m c main_v0) (V m c main_v1) :=
  (dats m 0 c).arrAt_eq_of_cover 2 _ (fun t _ => flushed2_eq m c t) cover2

/-! ## The reset potentials' array -/

/-- What point `t` writes back to the reset potentials array is block `t` of the reset potentials of the two regrouped argument arrays: the
    body's stored block is the reset potentials of its two loaded blocks (KernelStep.lean), and the two input blocks at `t` sit in
    their arrays exactly where the output block at `t` sits in its array. -/
theorem flushed3_eq (c : Dev nD) (t : Fin cfg0.N) :
    (dats m 0 c).flushed 3 t = ((cfg0.win 3).blk t).view.read (Elt Ideal)
      (membranes (S := S2048x128) (V m c main_v0) (V m c main_v1)) := by
  show (cfg0.win 3).cut (grid0.coords t) ((dats m 0 c).after 3 t) = _
  rw [after0_3]
  unfold out0_3
  rw [View.canon_unit_zero zero_offsets]
  simp only [View.ld_unit_zero (S := S1024x128) zero_offsets]
  rw [membranes_block]
  obtain ⟨e0, e1, e2, e3, e4, e5, e6, e7⟩ := block_indices t
  funext j
  show membrane (V m c main_v0 (((cfg0.win 0).blk t).view.emb j)) (V m c main_v1 (((cfg0.win 1).blk t).view.emb j))
    = membrane (V m c main_v0 (((cfg0.win 3).blk t).view.emb j)) (V m c main_v1 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 1024 + 1 * (j 0).val = win0_3.index t (0 : Fin 2) * 1024 + 1 * (j 0).val; omega
    | ⟨1, _⟩ => show win0_1.index t (1 : Fin 2) * 128 + 1 * (j 1).val = win0_3.index t (1 : Fin 2) * 128 + 1 * (j 1).val; omega
  rw [h0, h1]

/-- An index of the reset potentials array is in point `t`'s block iff each coordinate is in the block's range on its axis. -/
theorem mem_block3 (t : Fin cfg0.N) (i : S2048x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v2_1).slice (win0_3.rect t)).set ↔ _
  rw [View.set_slice_whole, Rect.mem_set_unit]
  exact Iff.rfl

/-- The two blocks tile the reset potentials array: row `r` is in the block of point `r / 1024`. -/
theorem cover3 (i : S2048x128.Idx) :
    ∃ t : Fin cfg0.N, (cfg0.win 3).flush t = true ∧ i ∈ ((cfg0.win 3).blk t).view.set := by
  have hi0 : (i 0).val < 2048 := (i 0).isLt
  have hi1 : (i 1).val < 128 := (i 1).isLt
  obtain ⟨t, ht⟩ : ∃ t : Fin cfg0.N, t.val = (i 0).val / 1024 :=
    ⟨⟨(i 0).val / 1024, by rw [show cfg0.N = 2 from N_0]; omega⟩, rfl⟩
  obtain ⟨e0, e1, e2, e3, e4, e5, e6, e7⟩ := block_indices t
  refine ⟨t, flush0_3 t, ?_⟩
  rw [mem_block3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 128 ≤ (i 1).val ∧ (i 1).val < win0_3.index t (1 : Fin 2) * 128 + 128; omega

/-- So after the last point the reset potentials array holds the reset potentials of the two regrouped argument arrays, whole. -/
theorem final3 (c : Dev nD) :
    (dats m 0 c).arrAt 3 cfg0.N = membranes (S := S2048x128) (V m c main_v0) (V m c main_v1) :=
  (dats m 0 c).arrAt_eq_of_cover 3 _ (fun t _ => flushed3_eq m c t) cover3

/-! ## The two results: each result array regrouped back -/

/-- The first result is the spikes' array regrouped as [131072, 2]. -/
theorem tail_spikes (c : Dev nD) : Pipeline.afterTail₀ cfgs (dats m) 0 (V0 m) [hostOps1] c main_v3
    = shapeCast S131072x2 ((dats m 0 c).arrAt 2 cfg0.N : S2048x128.Idx → Ideal .f32) shapeCasts_S2048x128_S131072x2 := by
  unfold Pipeline.afterTail₀
  show StableHlo.after hostOps1 _ (Proc.devRef .tc main_v3) = _
  after_results
  exact congrArg (fun A : S2048x128.Idx → Ideal .f32 => shapeCast S131072x2 A shapeCasts_S2048x128_S131072x2)
    (Pipeline.withArrays_arr spec0 launch0.win.arr_inj c (V0 m c) (fun w => (dats m 0 c).arrAt w cfg0.N) 2)

/-- The second is the reset potentials' array regrouped as [131072, 2]. -/
theorem tail_membranes (c : Dev nD) : Pipeline.afterTail₀ cfgs (dats m) 0 (V0 m) [hostOps1] c main_v4
    = shapeCast S131072x2 ((dats m 0 c).arrAt 3 cfg0.N : S2048x128.Idx → Ideal .f32) shapeCasts_S2048x128_S131072x2 := by
  unfold Pipeline.afterTail₀
  show StableHlo.after hostOps1 _ (Proc.devRef .tc main_v4) = _
  after_results
  exact congrArg (fun A : S2048x128.Idx → Ideal .f32 => shapeCast S131072x2 A shapeCasts_S2048x128_S131072x2)
    (Pipeline.withArrays_arr spec0 launch0.win.arr_inj c (V0 m c) (fun w => (dats m 0 c).arrAt w cfg0.N) 3)

/-- The first result is the spikes of the arguments: the step commutes with the regrouping, and regrouping there and
    back is the identity. -/
theorem result_spikes (c : Dev nD) : Pipeline.afterTail₀ cfgs (dats m) 0 (V0 m) [hostOps1] c main_v3
    = spikes (S := S131072x2) (m ((c : Thread nD τ).loc main_arg7)) (m ((c : Thread nD τ).loc main_arg8)) := by
  rw [tail_spikes, final2, entry_potentials, entry_currents, spikes_shapeCast]
  exact shapeCast_shapeCast _ _ _

/-- The second is their potentials after the reset. -/
theorem result_membranes (c : Dev nD) : Pipeline.afterTail₀ cfgs (dats m) 0 (V0 m) [hostOps1] c main_v4
    = membranes (S := S131072x2) (m ((c : Thread nD τ).loc main_arg7)) (m ((c : Thread nD τ).loc main_arg8)) := by
  rw [tail_membranes, final3, entry_potentials, entry_currents, membranes_shapeCast]
  exact shapeCast_shapeCast _ _ _

/-! ## The run, read -/

/-- Every weakly fair execution of the idealized kernel terminates with its two results at the spikes and the reset
    potentials of the output layer's arguments, and every argument unchanged. -/
theorem run : θ_run defs (onTc (τ := τ) (main (F := Ideal))) ⟨m, fun _ => 0, ρ⟩ fun r => ∀ c : Dev nD,
      r.2.mem ((c.tc : Thread nD τ).loc main_v3)
        = spikes (S := S131072x2) (m ((c.tc : Thread nD τ).loc main_arg7)) (m ((c.tc : Thread nD τ).loc main_arg8))
      ∧ r.2.mem ((c.tc : Thread nD τ).loc main_v4)
        = membranes (S := S131072x2) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨
      ((h c).2 main_v3 (Pipeline.mem_restRefs_of main_v3 (by decide) (by decide))).trans (result_spikes m c),
      ((h c).2 main_v4 (Pipeline.mem_restRefs_of main_v4 (by decide) (by decide))).trans (result_membranes m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Arrays

end
-- ==== Proof.RefStep.lean ====
/-
  The reference's two results are the step of LifStep.lean applied to the output layer's potentials and currents.

  The reference computes all three layers, but of what it returns, the spikes and the reset potentials of the output
  layer, each element depends only on that neuron's own potential and current: the outputs of the earlier layers enter
  the current of the NEXT step only, which is not returned. Read one operation at a time, the two returned stages are
  functions of the two output-layer arguments alone, and at each index they are: the spike, the firing bit read
  unsigned; and `(1 − z) · d + z · 0`, the reset spelt with a reset potential of zero, which is `(1 − z) · d`.
-/
import proofs.«172751_j49168785605378_2_alg».proof.Proof.Gen.ReferenceIdeal.Read
import proofs.«172751_j49168785605378_2_alg».proof.Proof.LifStep

noncomputable section

namespace Cert.ReferenceIdeal.Step

open Idealize.ShloMosaic Cert.ReferenceIdeal Cert.ReferenceIdeal.Read Cert.LifStep

/-- The first result, the spikes: at each index the firing bit of that neuron's decayed potential, read unsigned. -/
theorem spikes_stage (v i : S131072x2.Idx → Ideal .f32) : val_main_v59 (F := Ideal) v i = spikes v i := by
  funext j
  rfl

/-- The second result, the potentials after the reset: at each index `(1 − z) · d + z · 0`, and the last summand
    vanishes. -/
theorem membranes_stage (v i : S131072x2.Idx → Ideal .f32) : val_main_v65 (F := Ideal) v i = membranes v i := by
  funext j
  exact add_mul_zero_word (membrane (v j) (i j)) (spike (v j) (i j))

end Cert.ReferenceIdeal.Step

end
-- ==== Proof.lean ====
/-
  The idealized kernel and the idealized reference compute the same two arrays.

  The reference runs three layers of leaky integrate-and-fire neurons and returns the output layer's spikes and its
  potentials after the reset. Of everything it computes, these two depend only on the output layer's own potentials
  `v` and currents `i`: with `d = v + c · ((0 − v) + i)`, the spike is `z = [d − θ > 0]` and the reset potential is
  `(1 − z) · d + z · 0`. The earlier layers feed the output layer's NEXT current, which is not returned. The kernel
  computes just this step, on the two arguments regrouped as [2048, 128] in two blocks of rows, with the reset spelt
  `(1 − z) · d` and the firing bit widened before it is made a float, and regroups the two results back.

  At the ideal values the two agree element by element: the constants are the same f32 words on both sides; the
  widened bit read signed is the bit read unsigned; `z · 0 = 0` and `p + 0 = p` on the extended reals for every `z`
  and `p`, so nothing has to be finite; and a step that acts index by index commutes with regrouping the elements,
  regrouping there and back being the identity (LifStep.lean, KernelStep.lean, KernelArrays.lean, RefStep.lean).

  The three programs' runs (termination, no fault, the arguments unchanged) are the generated frames of the two
  kernels and the generated run of the reference. The idealization rewrote no operation, so it preserves nothing
  beyond the program's own text.
-/
import proofs.«172751_j49168785605378_2_alg».proof.Defs
import proofs.«172751_j49168785605378_2_alg».proof.Proof.Gen.Kernel
import proofs.«172751_j49168785605378_2_alg».proof.Proof.Gen.Kernel.Skeleton
import proofs.«172751_j49168785605378_2_alg».proof.Proof.Gen.Kernel.Launch
import proofs.«172751_j49168785605378_2_alg».proof.Proof.Gen.Kernel.Points
import proofs.«172751_j49168785605378_2_alg».proof.Proof.Gen.Kernel.Frame
import proofs.«172751_j49168785605378_2_alg».proof.Proof.Gen.KernelIdeal
import proofs.«172751_j49168785605378_2_alg».proof.Proof.Gen.KernelIdeal.Skeleton
import proofs.«172751_j49168785605378_2_alg».proof.Proof.Gen.KernelIdeal.Launch
import proofs.«172751_j49168785605378_2_alg».proof.Proof.Gen.KernelIdeal.Points
import proofs.«172751_j49168785605378_2_alg».proof.Proof.Gen.KernelIdeal.Frame
import proofs.«172751_j49168785605378_2_alg».proof.Proof.Gen.ReferenceIdeal
import proofs.«172751_j49168785605378_2_alg».proof.Proof.Gen.ReferenceIdeal.Run
import proofs.«172751_j49168785605378_2_alg».proof.Proof.Gen.ReferenceIdeal.Read
import proofs.«172751_j49168785605378_2_alg».proof.Proof.Gen.Pre_finite_inputs
import proofs.«172751_j49168785605378_2_alg».proof.Proof.LifStep
import proofs.«172751_j49168785605378_2_alg».proof.Proof.KernelStep
import proofs.«172751_j49168785605378_2_alg».proof.Proof.KernelArrays
import proofs.«172751_j49168785605378_2_alg».proof.Proof.RefStep
import Idealize.ShloMosaic.Adequacy
import Idealize.ShloMosaic.Init

noncomputable section

namespace Cert.Proof

open Idealize.ShloMosaic Idealize.SL.Sem Cert.LifStep

/-- The word-level kernel runs and leaves its arguments unchanged: its generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no kernel: its frame is its generated run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the spikes and the reset potentials of the output layer's arguments: the kernel by
    KernelArrays.lean, the reference by its generated run read stage by stage (RefStep.lean), from memories that agree
    on the arguments. -/
theorem algebraic : Cert.algebraic_KernelIdeal_ReferenceIdeal := by
  intro m ρ m' ρ' _ hagree
  refine ⟨fun c => spikes (S := Cert.KernelIdeal.S131072x2)
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    fun c => membranes (S := Cert.KernelIdeal.S131072x2)
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v59_eq, Cert.ReferenceIdeal.Step.spikes_stage,
      (hagree c).2.2.2.2.2.2.2.1, (hagree c).2.2.2.2.2.2.2.2]
  · rw [(h c).2.1, Cert.ReferenceIdeal.Read.val_main_v65_eq, Cert.ReferenceIdeal.Step.membranes_stage,
      (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
